-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x3 : Shape := ⟨3, ![16, 2048, 3]⟩
abbrev S_ : Shape := ⟨0, ![]⟩

class Facts : Prop where
  bcast_S_S16x2048x3 : S_.BroadcastsInDim S16x2048x3 (![] : Fin 0 → Fin S16x2048x3.rank)
  reducesTo_S16x2048x3_S_d0_1_2 : S16x2048x3.ReducesTo [0, 1, 2] S_
  h_S_ : 0 < S_.numel

variable [Facts]

def fn {F : FTy → Type} [FloatOps F] (main_arg0 : FVec F S16x2048x3 .f32) (main_arg1 : FVec F S16x2048x3 .f32) : IVec S_ 1 :=
  let main_v0 : FVec F S16x2048x3 .f32 := Host.absf main_arg0
  let main_cst : FVec F S_ .f32 := constant S_ .f32 0x7F800000#32
  let main_v1 : FVec F S16x2048x3 .f32 := broadcastInDim S16x2048x3 ![] bcast_S_S16x2048x3 main_cst
  let main_v2 : IVec S16x2048x3 1 := cmpf .olt main_v0 main_v1
  let main_c : IVec S_ 1 := constantI S_ 1 1#1
  let main_v3 : IVec S_ 1 := (fun x v => Host.reduce IntOp.andi x v reducesTo_S16x2048x3_S_d0_1_2 h_S_) main_v2 main_c
  let main_v4 : FVec F S16x2048x3 .f32 := Host.absf main_arg1
  let main_cst_0 : FVec F S_ .f32 := constant S_ .f32 0x7F800000#32
  let main_v5 : FVec F S16x2048x3 .f32 := broadcastInDim S16x2048x3 ![] bcast_S_S16x2048x3 main_cst_0
  let main_v6 : IVec S16x2048x3 1 := cmpf .olt main_v4 main_v5
  let main_c_1 : IVec S_ 1 := constantI S_ 1 1#1
  let main_v7 : IVec S_ 1 := (fun x v => Host.reduce IntOp.andi x v reducesTo_S16x2048x3_S_d0_1_2 h_S_) main_v6 main_c_1
  let main_v8 : IVec S_ 1 := andi main_v3 main_v7
  main_v8
-- ==== Kernel.lean ====
abbrev S16x2048x3 : Shape := ⟨3, ![16, 2048, 3]⟩
abbrev S16x1x1 : Shape := ⟨3, ![16, 1, 1]⟩
abbrev S1x2048x3 : Shape := ⟨3, ![1, 2048, 3]⟩
abbrev S1x1024x3 : Shape := ⟨3, ![1, 1024, 3]⟩
abbrev S1x1x1 : Shape := ⟨3, ![1, 1, 1]⟩
abbrev S2048x1 : Shape := ⟨2, ![2048, 1]⟩
abbrev S2048x3 : Shape := ⟨2, ![2048, 3]⟩
abbrev S1024x3 : Shape := ⟨2, ![1024, 3]⟩
abbrev S2048 : Shape := ⟨1, ![2048]⟩
abbrev S1024 : Shape := ⟨1, ![1024]⟩
abbrev S1x1024 : Shape := ⟨2, ![1, 1024]⟩
abbrev S1024x1 : Shape := ⟨2, ![1024, 1]⟩
abbrev S2048x1024 : Shape := ⟨2, ![2048, 1024]⟩
abbrev S1 : Shape := ⟨1, ![1]⟩
abbrev S1x1 : Shape := ⟨2, ![1, 1]⟩
abbrev S_ : Shape := ⟨0, ![]⟩

abbrev nBuf : Space → Nat
  | .hbm => 9
  | .vmem => 10
  | .smem => 0
  | _ => 0

abbrev bufTy : (tb : Table) → Fin (tcTables nBuf tb) → BufTy
  | .hbm, ⟨0, _⟩ => ⟨S16x2048x3, .f32⟩
  | .hbm, ⟨1, _⟩ => ⟨S16x2048x3, .f32⟩
  | .hbm, ⟨2, _⟩ => ⟨S16x1x1, .f32⟩
  | .hbm, ⟨3, _⟩ => ⟨S16x1x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S1x2048x3, .f32⟩
  | .local _ .vmem, ⟨1, _⟩ => ⟨S1x2048x3, .f32⟩
  | .local _ .vmem, ⟨2, _⟩ => ⟨S1x1024x3, .f32⟩
  | .local _ .vmem, ⟨3, _⟩ => ⟨S1x1024x3, .f32⟩
  | .local _ .vmem, ⟨4, _⟩ => ⟨S1x1x1, .f32⟩
  | .local _ .vmem, ⟨5, _⟩ => ⟨S1x1x1, .f32⟩
  | .local _ .vmem, ⟨6, _⟩ => ⟨S1x1x1, .f32⟩
  | .local _ .vmem, ⟨7, _⟩ => ⟨S1x1x1, .f32⟩
  | .local _ .vmem, ⟨8, _⟩ => ⟨S2048x1, .f32⟩
  | .local _ .vmem, ⟨9, _⟩ => ⟨S2048x1, .f32⟩
  | _, _ => ⟨S16x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v58 : BitVec 1 := Scalar.cmpi .eq arg1 c1_i32
  let v59 : BitVec 32 := Scalar.extui v58
  let c0_i32_23 : BitVec 32 := 0#32
  let v60 : BitVec 1 := Scalar.cmpi .ne v59 c0_i32_23
  v60

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x2048x3_S1x2048x3_0_0_0 : ∀ a, (![0, 0, 0] : Fin 3 → Nat) a + S1x2048x3.size a ≤ S1x2048x3.size a
  h_S1x2048x3 : 0 < S1x2048x3.numel
  shapeCasts_S1x2048x3_S2048x3 : S1x2048x3.ShapeCasts S2048x3
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x1x1_S1x1x1_0_0_0 : ∀ a, (![0, 0, 0] : Fin 3 → Nat) a + S1x1x1.size a ≤ S1x1x1.size a
  h_S1x1x1 : 0 < S1x1x1.numel
  reduces_S2048x3_S2048 : S2048x3.Reduces [1] S2048
  shapeCasts_S2048_S2048x1 : S2048.ShapeCasts S2048x1
  reduces_S1024x3_S1024 : S1024x3.Reduces [1] S1024
  shapeCasts_S1024_S1x1024 : S1024.ShapeCasts S1x1024
  slices_S2048x3_o0_0_S2048x1 : S2048x3.Slices ![0, 0] S2048x1
  slices_S1024x3_o0_0_S1024x1 : S1024x3.Slices ![0, 0] S1024x1
  shapeCasts_S1024x1_S1024 : S1024x1.ShapeCasts S1024
  broadcasts_S2048x1_S2048x1024 : S2048x1.Broadcasts S2048x1024
  broadcasts_S1x1024_S2048x1024 : S1x1024.Broadcasts S2048x1024
  slices_S2048x3_o0_1_S2048x1 : S2048x3.Slices ![0, 1] S2048x1
  slices_S1024x3_o0_1_S1024x1 : S1024x3.Slices ![0, 1] S1024x1
  slices_S2048x3_o0_2_S2048x1 : S2048x3.Slices ![0, 2] S2048x1
  slices_S1024x3_o0_2_S1024x1 : S1024x3.Slices ![0, 2] S1024x1
  reduces_S2048x1024_S2048 : S2048x1024.Reduces [1] S2048
  reduces_S2048x1024_S1024 : S2048x1024.Reduces [0] S1024
  shapeCasts_S1x1x1_S1x1x1 : S1x1x1.ShapeCasts S1x1x1
  reduces_S1x1024_S1 : S1x1024.Reduces [1] S1
  shapeCasts_S1_S1x1 : S1.ShapeCasts S1x1
  shapeCasts_S1x1_S1x1x1 : S1x1.ShapeCasts S1x1x1
  reduces_S2048x1_S1 : S2048x1.Reduces [0] S1
  reducesTo_S16x1x1_S_d0_1_2 : S16x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x3.size a ≤ S16x2048x3.size a
  hwx0_0 : ∀ i : grid0.Coords, EltTy.bits .f32 = 32 ∨ (Rect.block (s := S16x2048x3) S1x2048x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x3.size a ≤ S16x2048x3.size a
  hwx0_1 : ∀ i : grid0.Coords, EltTy.bits .f32 = 32 ∨ (Rect.block (s := S16x2048x3) S1x1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S16x1x1.size a
  hwx0_2 : ∀ i : grid0.Coords, EltTy.bits .f32 = 32 ∨ (Rect.block (s := S16x1x1) S1x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S16x1x1.size a
  hwx0_3 : ∀ i : grid0.Coords, EltTy.bits .f32 = 32 ∨ (Rect.block (s := S16x1x1) S1x1x1.size (cc0_transform_3 i) (hinb0_3 i)).WholeWords (EltTy.packing .f32)

variable [Facts₀]

abbrev win0_0 : Pipeline.Window sig grid0 :=
  Pipeline.Window.ofSpec (Memref.whole main_arg0) S1x2048x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun _ => false | ⟨_ + 4, h⟩ => absurd h (Nat.not_lt.2 (Nat.le_add_left _ _))

class Facts : Prop extends Facts₀ where

variable [Facts]
-- ==== ReferenceIdeal.lean ====
abbrev S16x2048x3 : Shape := ⟨3, ![16, 2048, 3]⟩
abbrev S_ : Shape := ⟨0, ![]⟩
abbrev S16x2048 : Shape := ⟨2, ![16, 2048]⟩
abbrev S16x2048x2048 : Shape := ⟨3, ![16, 2048, 2048]⟩
abbrev S16x2048x1 : Shape := ⟨3, ![16, 2048, 1]⟩
abbrev S16x1x2048 : Shape := ⟨3, ![16, 1, 2048]⟩

abbrev nBuf : Space → Nat
  | .hbm => 27
  | .vmem => 0
  | .smem => 0
  | _ => 0

abbrev bufTy : (tb : Table) → Fin (tcTables nBuf tb) → BufTy
  | .hbm, ⟨0, _⟩ => ⟨S16x2048x3, .f32⟩
  | .hbm, ⟨1, _⟩ => ⟨S16x2048x3, .f32⟩
  | .hbm, ⟨2, _⟩ => ⟨S16x2048x3, .f32⟩
  | .hbm, ⟨3, _⟩ => ⟨S_, .f32⟩
  | .hbm, ⟨4, _⟩ => ⟨S16x2048, .f32⟩
  | .hbm, ⟨5, _⟩ => ⟨S16x2048x3, .f32⟩
  | .hbm, ⟨6, _⟩ => ⟨S_, .f32⟩
  | .hbm, ⟨7, _⟩ => ⟨S16x2048, .f32⟩
  | .hbm, ⟨8, _⟩ => ⟨S16x2048x2048, .f32⟩
  | .hbm, ⟨9, _⟩ => ⟨S16x2048x1, .f32⟩
  | .hbm, ⟨10, _⟩ => ⟨S16x1x2048, .f32⟩
  | .hbm, ⟨11, _⟩ => ⟨S16x2048x2048, .f32⟩
  | .hbm, ⟨12, _⟩ => ⟨S16x2048x2048, .f32⟩
  | .hbm, ⟨13, _⟩ => ⟨S16x2048x2048, .f32⟩
  | .hbm, ⟨14, _⟩ => ⟨S_, .f32⟩
  | .hbm, ⟨15, _⟩ => ⟨S16x2048x2048, .f32⟩
  | .hbm, ⟨16, _⟩ => ⟨S16x2048x2048, .f32⟩
  | .hbm, ⟨17, _⟩ => ⟨S16x2048x2048, .f32⟩
  | .hbm, ⟨18, _⟩ => ⟨S_, .f32⟩
  | .hbm, ⟨19, _⟩ => ⟨S16x2048, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S16x2048, .f32⟩
  | .hbm, ⟨24, _⟩ => ⟨S_, .f32⟩
  | .hbm, ⟨25, _⟩ => ⟨S_, .f32⟩
  | .hbm, ⟨26, _⟩ => ⟨S_, .f32⟩
  | _, _ => ⟨S16x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  reducesTo_S16x2048x3_S16x2048_d2 : S16x2048x3.ReducesTo [2] S16x2048
  h_S_ : 0 < S_.numel
  bcast_S16x2048_S16x2048x1_0_1 : S16x2048.BroadcastsInDim S16x2048x1 (![0, 1] : Fin 2 → Fin S16x2048x1.rank)
  bcast_S16x2048_S16x1x2048_0_2 : S16x2048.BroadcastsInDim S16x1x2048 (![0, 2] : Fin 2 → Fin S16x1x2048.rank)
  bcast_S16x2048x1_S16x2048x2048_0_1_2 : S16x2048x1.BroadcastsInDim S16x2048x2048 (![0, 1, 2] : Fin 3 → Fin S16x2048x2048.rank)
  bcast_S16x1x2048_S16x2048x2048_0_1_2 : S16x1x2048.BroadcastsInDim S16x2048x2048 (![0, 1, 2] : Fin 3 → Fin S16x2048x2048.rank)
  bcast_S_S16x2048x2048 : S_.BroadcastsInDim S16x2048x2048 (![] : Fin 0 → Fin S16x2048x2048.rank)
  reducesTo_S16x2048x2048_S16x2048_d2 : S16x2048x2048.ReducesTo [2] S16x2048
  reducesTo_S16x2048_S_d0_1 : S16x2048.ReducesTo [0, 1] S_
  reducesTo_S16x2048x2048_S16x2048_d1 : S16x2048x2048.ReducesTo [1] S16x2048
  dot_S16x2048x3_S16x2048x3_S16x2048x2048_2_2_1_1_0_0_wf : DotDims.WF S16x2048x3 S16x2048x3 S16x2048x2048 [2] [2] [1] [1] [0] [0]

variable [Facts₀]

def dot_S16x2048x3_S16x2048x3_S16x2048x2048_2_2_1_1_0_0 : DotDims S16x2048x3 S16x2048x3 S16x2048x2048 where
  lhsContracting := [2]
  rhsContracting := [2]
  lhsNonContracting := [1]
  rhsNonContracting := [1]
  lhsBatch := [0]
  rhsBatch := [0]
  wf := dot_S16x2048x3_S16x2048x3_S16x2048x2048_2_2_1_1_0_0_wf

class Facts : Prop extends Facts₀ where

variable [Facts]
-- ==== Proof.Words.lean ====
/-
  The float words the two programs spell, as extended reals: +0.0 is 0, 0x40000000 is 2, 0xC0000000 is -2, and
  0x7F800000 is +inf (the top element).
-/
import Idealize.ShloMosaic.PureOps.Ideal.Laws

noncomputable section

namespace Cert.Words

open Idealize.ShloMosaic

abbrev zeroW : EReal := Ideal.ofBits .f32 0x00000000#32
abbrev posInf : EReal := Ideal.ofBits .f32 0x7F800000#32
abbrev negTwoW : EReal := Ideal.ofBits .f32 0xC0000000#32
abbrev twoW : EReal := Ideal.ofBits .f32 0x40000000#32

theorem zeroW_eq : zeroW = 0 := Ideal.ofBits_zero_f32

theorem twoW_eq : twoW = ((2 : ℝ) : EReal) := by
  simp [twoW, Ideal.ofBits, Ideal.ieee, -EReal.coe_mul]; norm_num

theorem negTwoW_eq : negTwoW = ((-2 : ℝ) : EReal) := by
  simp [negTwoW, Ideal.ofBits, Ideal.ieee, -EReal.coe_mul]; norm_num

theorem posInf_eq : posInf = ⊤ := by
  simp [posInf, Ideal.ofBits, Ideal.ieee]

end Cert.Words

end
-- ==== Proof.Chamfer.lean ====
/-
  The Chamfer loss of two clouds of 2048 points in R³ per batch, sixteen batches, on the extended reals, in the two
  arrangements the two programs use, and why they agree on finite inputs.

  The squared distance between prediction n and target m of batch b is written
    by the kernel     (|p_n|² + |t_m|²) + (((0 + p_n0·(t_m0·(-2))) + p_n1·(t_m1·(-2))) + p_n2·(t_m2·(-2)))
    by the reference  ((0 + |p_n|²) + (0 + |t_m|²)) - 2·Σ_d p_nd·t_md.
  On real numbers both are |p_n|² + |t_m|² - 2 p_n·t_m (distributivity, which needs finiteness on the extended reals).

  The loss is Σ_b Σ_n min_m d + Σ_b Σ_m min_n d.  The kernel walks the targets in two tiles of 1024 columns: a row's
  minimum over 2048 columns is the minimum of its two tile minima (each started from +inf, the first also taken against
  a stored +inf), and the sum over 2048 columns of the column minima is the first tile's sum (added to a stored 0) plus
  the second tile's.  Minimum and addition on the extended reals are commutative and associative, so no finiteness is
  needed for the regrouping.
-/
import proofs.«155968_j11656541241933_2_alg».proof.Proof.Words
import Idealize.ShloMosaic.Lib.ValueIdx

noncomputable section

namespace Cert.Chamfer

open Idealize.ShloMosaic Idealize.ShloMosaic.ValueIdx Cert.Words

/-- A cloud: sixteen batches of 2048 points with 3 coordinates. -/
abbrev Cloud := (⟨3, ![16, 2048, 3]⟩ : Shape).Idx → EReal

/-- Every coordinate is a real number. -/
def Finite (x : Cloud) : Prop := ∀ i, ∃ r : ℝ, x i = (r : EReal)

/-- Column k of tile j among the 2048 columns. -/
def tileCol (j : Fin 2) (k : Fin 1024) : Fin 2048 :=
  ⟨j.val * 1024 + k.val, by have := j.isLt; have := k.isLt; omega⟩

/-- The 2048 columns are the two tiles' columns. -/
def tileEquiv : Fin 2 × Fin 1024 ≃ Fin 2048 where
  toFun jk := tileCol jk.1 jk.2
  invFun m := (⟨m.val / 1024, by have := m.isLt; omega⟩, ⟨m.val % 1024, by omega⟩)
  left_inv := by
    rintro ⟨j, k⟩
    have := j.isLt; have := k.isLt
    refine Prod.ext (Fin.ext ?_) (Fin.ext ?_)
    · show (j.val * 1024 + k.val) / 1024 = j.val; omega
    · show (j.val * 1024 + k.val) % 1024 = k.val; omega
  right_inv := by
    intro m
    refine Fin.ext ?_
    show m.val / 1024 * 1024 + m.val % 1024 = m.val
    omega

theorem forall_cols (Q : Fin 2048 → Prop) : (∀ m, Q m) ↔ (∀ k, Q (tileCol 0 k)) ∧ ∀ k, Q (tileCol 1 k) := by
  constructor
  · exact fun h => ⟨fun k => h _, fun k => h _⟩
  · rintro ⟨h0, h1⟩ m
    obtain ⟨⟨j, k⟩, rfl⟩ := tileEquiv.surjective m
    match j with
    | ⟨0, _⟩ => exact h0 k
    | ⟨1, _⟩ => exact h1 k

/-- A minimum over the 2048 columns, started from any value, is the minimum of the two tiles' minima started from the
    same value, the first taken once more against that value. -/
theorem fold_min_halves (f : Fin 2048 → EReal) (top : EReal) :
    (Finset.univ : Finset (Fin 2048)).fold min top f
      = min (min top ((Finset.univ : Finset (Fin 1024)).fold min top fun k => f (tileCol 0 k)))
          ((Finset.univ : Finset (Fin 1024)).fold min top fun k => f (tileCol 1 k)) := by
  refine eq_of_forall_le_iff fun c => ?_
  simp only [Finset.le_fold_min, le_min_iff, Finset.mem_univ, forall_true_left]
  rw [forall_cols fun m => c ≤ f m]
  tauto

/-- A sum over the 2048 columns is the first tile's sum, added to zero, plus the second tile's. -/
theorem sum_halves (g : Fin 2048 → EReal) (z : EReal) (hz : z = 0) :
    ∑ m, g m = (z + ∑ k : Fin 1024, g (tileCol 0 k)) + ∑ k : Fin 1024, g (tileCol 1 k) := by
  rw [hz, zero_add, ← Equiv.sum_comp tileEquiv g, Fintype.sum_prod_type, Fin.sum_univ_two]
  rfl

/-- |x_n|² for point n of batch b. -/
def sq (x : Cloud) (b : Fin 16) (n : Fin 2048) : EReal := ∑ d : Fin 3, x (ix3 b n d) * x (ix3 b n d)

/-- The squared distance as the kernel arranges it. -/
def distK (p t : Cloud) (b : Fin 16) (n m : Fin 2048) : EReal :=
  (sq p b n + sq t b m)
    + (((zeroW + p (ix3 b n 0) * (t (ix3 b m 0) * negTwoW)) + p (ix3 b n 1) * (t (ix3 b m 1) * negTwoW))
        + p (ix3 b n 2) * (t (ix3 b m 2) * negTwoW))

/-- The squared distance as the reference arranges it. -/
def distR (p t : Cloud) (b : Fin 16) (n m : Fin 2048) : EReal :=
  ((zeroW + sq p b n) + (zeroW + sq t b m)) - twoW * ∑ d : Fin 3, p (ix3 b n d) * t (ix3 b m d)

/-- On finite clouds the two arrangements are the same real number. -/
theorem distK_eq_distR (p t : Cloud) (hp : Finite p) (ht : Finite t) (b : Fin 16) (n m : Fin 2048) :
    distK p t b n m = distR p t b n m := by
  obtain ⟨a0, ha0⟩ := hp (ix3 b n 0)
  obtain ⟨a1, ha1⟩ := hp (ix3 b n 1)
  obtain ⟨a2, ha2⟩ := hp (ix3 b n 2)
  obtain ⟨c0, hc0⟩ := ht (ix3 b m 0)
  obtain ⟨c1, hc1⟩ := ht (ix3 b m 1)
  obtain ⟨c2, hc2⟩ := ht (ix3 b m 2)
  unfold distK distR sq
  simp only [Fin.sum_univ_three, ha0, ha1, ha2, hc0, hc1, hc2, zeroW_eq, negTwoW_eq, twoW_eq, zero_add]
  norm_cast
  push_cast
  ring

/-- Batch b's row sum as the kernel accumulates it. -/
def rowSumK (p t : Cloud) (b : Fin 16) : EReal :=
  ∑ n : Fin 2048,
    min (min posInf ((Finset.univ : Finset (Fin 1024)).fold min posInf fun k => distK p t b n (tileCol 0 k)))
      ((Finset.univ : Finset (Fin 1024)).fold min posInf fun k => distK p t b n (tileCol 1 k))

/-- Batch b's column sum as the kernel accumulates it. -/
def colSumK (p t : Cloud) (b : Fin 16) : EReal :=
  (zeroW + ∑ k : Fin 1024, (Finset.univ : Finset (Fin 2048)).fold min posInf fun n => distK p t b n (tileCol 0 k))
    + ∑ k : Fin 1024, (Finset.univ : Finset (Fin 2048)).fold min posInf fun n => distK p t b n (tileCol 1 k)

/-- The loss as the kernel's program computes it. -/
def lossK (p t : Cloud) : EReal := (zeroW + ∑ b : Fin 16, rowSumK p t b) + (zeroW + ∑ b : Fin 16, colSumK p t b)

/-- The loss as the reference computes it. -/
def lossR (p t : Cloud) : EReal :=
  (zeroW + ∑ b : Fin 16, ∑ n : Fin 2048, (Finset.univ : Finset (Fin 2048)).fold min posInf fun m => distR p t b n m)
    + (zeroW + ∑ b : Fin 16, ∑ m : Fin 2048, (Finset.univ : Finset (Fin 2048)).fold min posInf fun n => distR p t b n m)

theorem rowSumK_eq (p t : Cloud) (b : Fin 16) :
    rowSumK p t b = ∑ n : Fin 2048, (Finset.univ : Finset (Fin 2048)).fold min posInf fun m => distK p t b n m :=
  Finset.sum_congr rfl fun n _ => (fold_min_halves (fun m => distK p t b n m) posInf).symm

theorem colSumK_eq (p t : Cloud) (b : Fin 16) :
    colSumK p t b = ∑ m : Fin 2048, (Finset.univ : Finset (Fin 2048)).fold min posInf fun n => distK p t b n m :=
  (sum_halves (fun m => (Finset.univ : Finset (Fin 2048)).fold min posInf fun n => distK p t b n m) zeroW zeroW_eq).symm

/-- On finite clouds the two programs' losses agree. -/
theorem lossK_eq_lossR (p t : Cloud) (hp : Finite p) (ht : Finite t) : lossK p t = lossR p t := by
  unfold lossK lossR
  simp only [rowSumK_eq, colSumK_eq, distK_eq_distR p t hp ht]

end Cert.Chamfer

end
-- ==== Proof.LibMinRank3.lean ====
/-
  Minima taken by the host along one axis of a rank-3 array of extended reals, read at an index.

  A host reduction by minimum, from an initial value, along the last axis of an [a, b, c] array reads at (i, j) the
  minimum over the c coordinates k of the entry (i, j, k); along the middle axis it reads at (i, k) the minimum over the
  b coordinates j of the entry (i, j, k).  Minimum is commutative and associative, so the order of the fold is immaterial.
-/
import Idealize.ShloMosaic.PureOps.Ideal.Laws
import Idealize.ShloMosaic.PureOps.Reduce
import Idealize.ShloMosaic.Lib.ValueIdx

noncomputable section

namespace Cert.LibMinRank3

open Idealize.ShloMosaic Idealize.ShloMosaic.ValueIdx

/-- Along the last axis. -/
theorem hostMin_axis2_apply {a b cc : ℕ} (x : FVec Ideal ⟨3, ![a, b, cc]⟩ .f32) (init : FVec Ideal ⟨0, ![]⟩ .f32)
    (h' : (⟨3, ![a, b, cc]⟩ : Shape).ReducesTo [2] (⟨2, ![a, b]⟩ : Shape))
    (h : (⟨3, ![a, b, cc]⟩ : Shape).Reduces [2] (⟨2, ![a, b]⟩ : Shape)) (hu : 0 < (⟨0, ![]⟩ : Shape).numel)
    (i : Fin a) (j : Fin b) :
    Host.reduce FloatOps.minimumf x init h' hu (ix2 i j)
      = (Finset.univ : Finset (Fin cc)).fold min (init (Shape.Idx.first hu)) fun k => x (ix3 i j k) := by
  rw [Host.reduce_eq_fold_single FloatOps.minimumf x _ h' h hu]
  have hf : (x ∘ h.lift (ix2 i j)) = fun k : Fin cc => x (ix3 i j k) :=
    funext fun k => congrArg x (funext fun c => Fin.ext (by fin_cases c <;> rfl))
  exact congrArg (fun f => Finset.fold min (init (Shape.Idx.first hu)) f (Finset.univ : Finset (Fin cc))) hf

/-- Along the middle axis. -/
theorem hostMin_axis1_apply {a b cc : ℕ} (x : FVec Ideal ⟨3, ![a, b, cc]⟩ .f32) (init : FVec Ideal ⟨0, ![]⟩ .f32)
    (h' : (⟨3, ![a, b, cc]⟩ : Shape).ReducesTo [1] (⟨2, ![a, cc]⟩ : Shape))
    (h : (⟨3, ![a, b, cc]⟩ : Shape).Reduces [1] (⟨2, ![a, cc]⟩ : Shape)) (hu : 0 < (⟨0, ![]⟩ : Shape).numel)
    (i : Fin a) (k : Fin cc) :
    Host.reduce FloatOps.minimumf x init h' hu (ix2 i k)
      = (Finset.univ : Finset (Fin b)).fold min (init (Shape.Idx.first hu)) fun j => x (ix3 i j k) := by
  rw [Host.reduce_eq_fold_single FloatOps.minimumf x _ h' h hu]
  have hf : (x ∘ h.lift (ix2 i k)) = fun j : Fin b => x (ix3 i j k) :=
    funext fun j => congrArg x (funext fun c => Fin.ext (by fin_cases c <;> rfl))
  exact congrArg (fun f => Finset.fold min (init (Shape.Idx.first hu)) f (Finset.univ : Finset (Fin b))) hf

end Cert.LibMinRank3

end
-- ==== Proof.Reference.lean ====
/-
  The reference's result read as a function of the two argument arrays: entry (b, n, m) of its distance array is
  ((0 + |p_n|²) + (0 + |t_m|²)) - 2·Σ_d p_nd·t_md; its two minimum-reductions (along the targets and along the
  predictions, each from +inf) are minima over the reduced coordinate; its two sums run over all (batch, point) pairs;
  so its result is the Chamfer loss in the reference's arrangement.
-/
import proofs.«155968_j11656541241933_2_alg».proof.Defs
import proofs.«155968_j11656541241933_2_alg».proof.Proof.Gen.ReferenceIdeal.Run
import proofs.«155968_j11656541241933_2_alg».proof.Proof.Gen.ReferenceIdeal.Read
import proofs.«155968_j11656541241933_2_alg».proof.Proof.Chamfer
import proofs.«155968_j11656541241933_2_alg».proof.Proof.LibMinRank3
import Idealize.ShloMosaic.PureOps.Reduce

noncomputable section

namespace Cert.ReferenceIdeal.RefValue

open Cert.ReferenceIdeal Cert.ReferenceIdeal.Gen Cert.ReferenceIdeal.Read
open Idealize.ShloMosaic Idealize.ShloMosaic.ValueIdx Cert.Words

variable (x0 x1 : (⟨S16x2048x3, .f32⟩ : BufTy).Contents (Elt Ideal))

/-- Entry (b, n, m) of the distance array. -/
theorem dist_apply (b : Fin 16) (n m : Fin 2048) :
    val_main_v12 (F := Ideal) x0 x1 (ix3 b n m) = Cert.Chamfer.distR x0 x1 b n m := by
  have e1 : ∀ d : Fin 3, idx_main_v1 (idx_main_v5 (idx_main_v7 (ix3 b n m))) d = ix3 b n d := fun d =>
    funext fun a => Fin.ext (by match a with | ⟨0, _⟩ => rfl | ⟨1, _⟩ => rfl | ⟨2, _⟩ => rfl)
  have e3 : ∀ d : Fin 3, idx_main_v3 (idx_main_v6 (idx_main_v8 (ix3 b n m))) d = ix3 b m d := fun d =>
    funext fun a => Fin.ext (by match a with | ⟨0, _⟩ => rfl | ⟨1, _⟩ => rfl | ⟨2, _⟩ => rfl)
  have el : ∀ d : Fin 3, lidx_main_v4 (ix3 b n m) d = ix3 b n d := fun d =>
    funext fun a => Fin.ext (by match a with | ⟨0, _⟩ => rfl | ⟨1, _⟩ => rfl | ⟨2, _⟩ => rfl)
  have er : ∀ d : Fin 3, ridx_main_v4 (ix3 b n m) d = ix3 b m d := fun d =>
    funext fun a => Fin.ext (by match a with | ⟨0, _⟩ => rfl | ⟨1, _⟩ => rfl | ⟨2, _⟩ => rfl)
  rw [val_main_v12_apply, val_main_v9_apply, val_main_v11_apply, val_main_v7_apply, val_main_v8_apply, val_main_v5_apply,
    val_main_v6_apply, val_main_v1_apply, val_main_v3_apply, val_main_v10_apply, val_main_v4_apply]
  simp only [e1, e3, el, er, val_main_v0_apply, val_main_v2_apply]
  rfl

/-- The minimum along the targets, at (b, n). -/
theorem minOverTargets_apply (b : Fin 16) (n : Fin 2048) :
    val_main_v13 (F := Ideal) x0 x1 (ix2 b n)
      = (Finset.univ : Finset (Fin 2048)).fold min posInf fun m => Cert.Chamfer.distR x0 x1 b n m := by
  unfold val_main_v13
  refine (Cert.LibMinRank3.hostMin_axis2_apply (val_main_v12 (F := Ideal) x0 x1) (val_main_cst_2 (F := Ideal))
    reducesTo_S16x2048x2048_S16x2048_d2 (by decide) h_S_ b n).trans ?_
  simp only [dist_apply]
  rfl

/-- The minimum along the predictions, at (b, m). -/
theorem minOverPreds_apply (b : Fin 16) (mm : Fin 2048) :
    val_main_v15 (F := Ideal) x0 x1 (ix2 b mm)
      = (Finset.univ : Finset (Fin 2048)).fold min posInf fun n => Cert.Chamfer.distR x0 x1 b n mm := by
  unfold val_main_v15
  refine (Cert.LibMinRank3.hostMin_axis1_apply (val_main_v12 (F := Ideal) x0 x1) (val_main_cst_4 (F := Ideal))
    reducesTo_S16x2048x2048_S16x2048_d1 (by decide) h_S_ b mm).trans ?_
  simp only [dist_apply]
  rfl

/-- The reference's result is the Chamfer loss in the reference's arrangement. -/
theorem result_apply (i : S_.Idx) : val_main_v17 (F := Ideal) x0 x1 i = Cert.Chamfer.lossR x0 x1 := by
  rw [val_main_v17_apply, val_main_v14_apply, val_main_v16_apply, sum_idx2, sum_idx2]
  simp only [minOverTargets_apply, minOverPreds_apply]
  rfl

end Cert.ReferenceIdeal.RefValue

end
-- ==== Proof.Pieces.lean ====
/-
  What each case of the kernel body leaves in the two outputs' staging buffers and in the two carried scratch
  buffers, as the body's pure arithmetic (the payloads) applied to what the buffers held when the body started.
-/
import proofs.«155968_j11656541241933_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen
open Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords)
  (a2 : Memref sig .tc .vmem S1x2048x3 .f32) (h2 : a2.IsWhole) (a3 : Memref sig .tc .vmem S1x1024x3 .f32) (h3 : a3.IsWhole)
  (a4 : Memref sig .tc .vmem S1x1x1 .f32) (h4 : a4.IsWhole) (a5 : Memref sig .tc .vmem S1x1x1 .f32) (h5 : a5.IsWhole)
  (a6 : Memref sig .tc .vmem S2048x1 .f32) (h6 : a6.IsWhole) (a7 : Memref sig .tc .vmem S2048x1 .f32) (h7 : a7.IsWhole)

/-- At a batch's first tile the row squares are computed afresh from the predictions block. -/
theorem rowSquares_first (hc0 : cond0_0 i) (hc1 : ¬cond0_1 i) (x0 : Vec F S1x2048x3 .f32) (x1 : Vec F S1x1024x3 .f32) :
    sout0_A_1 c i a2 h2 a3 h3 a4 h4 a5 h5 a6 h6 a7 h7 hc0 hc1 x0 x1 = k0_pay7 x0 := by
  unfold sout0_A_1
  rw [View.read_writes_eq_canon _ _ _ (scover0_A_1 c i a2 h2 a3 h3 a4 h4 a5 h5 a6 h6 a7 h7 hc0 hc1 x0 x1)]
  unfold kernelRun0_A
  dsimp only
  sl_unfold_words
  rw [View.canon_unit_zero hz2]
  simp only [View.readAt_eq_ld, h2.read_unread, View.ld_unit_zero (S := S1x2048x3) hz3]

/-- At a batch's first tile the running row minimum is the tile's row minimum taken against the freshly stored +inf. -/
theorem rowMin_first (hc0 : cond0_0 i) (hc1 : ¬cond0_1 i) (x0 : Vec F S1x2048x3 .f32) (x1 : Vec F S1x1024x3 .f32) :
    sout0_A_0 c i a2 h2 a3 h3 a4 h4 a5 h5 a6 h6 a7 h7 hc0 hc1 x0 x1 = k0_pay1 (k0_pay9 x0 x1 (k0_pay7 x0)) (k0_pay5 (F := F)) := by
  unfold sout0_A_0
  rw [View.read_writes_eq_canon _ _ _ (scover0_A_0 c i a2 h2 a3 h3 a4 h4 a5 h5 a6 h6 a7 h7 hc0 hc1 x0 x1)]
  unfold kernelRun0_A
  dsimp only
  sl_unfold_words
  rw [View.canon_cons_unit_zero (S := S2048x1) hz2, View.readCov_unit_zero (S := S2048x1) _ hz2,
    View.readCov_unit_zero (S := S2048x1) _ hz2]
  simp only [View.readAt_eq_ld, h2.read_unread, h3.read_unread,
    View.ld_unit_zero (S := S1x2048x3) hz3, View.ld_unit_zero (S := S1x1024x3) hz3]

/-- At a batch's first tile the column sum is the tile's sum of column minima added to the freshly stored zero. -/
theorem colSum_first (hc0 : cond0_0 i) (hc1 : ¬cond0_1 i) (x0 : Vec F S1x2048x3 .f32) (x1 : Vec F S1x1024x3 .f32) :
    out0_A_3 c i a2 h2 a3 h3 a4 h4 a5 h5 a6 h6 a7 h7 hc0 hc1 x0 x1 = k0_pay2 (k0_pay8 x0 x1 (k0_pay7 x0)) (k0_pay6 (F := F)) := by
  unfold out0_A_3
  rw [View.read_writes_eq_canon _ _ _ (cover0_A_3 c i a2 h2 a3 h3 a4 h4 a5 h5 a6 h6 a7 h7 hc0 hc1 x0 x1)]
  unfold kernelRun0_A
  dsimp only
  sl_unfold_words
  rw [View.canon_cons_unit_zero (S := S1x1x1) hz3, View.readCov_unit_zero (S := S2048x1) _ hz2,
    View.readCov_unit_zero (S := S1x1x1) _ hz3]
  simp only [View.readAt_eq_ld, h2.read_unread, h3.read_unread,
    View.ld_unit_zero (S := S1x2048x3) hz3, View.ld_unit_zero (S := S1x1024x3) hz3]

/-- At a batch's second tile the running row minimum is lowered by the tile's row minimum; the row squares are the carried ones. -/
theorem rowMin_second (hc0 : ¬cond0_0 i) (hc1 : cond0_1 i) (x0 : Vec F S1x2048x3 .f32) (x1 : Vec F S1x1024x3 .f32)
    (xo3 : Vec F S1x1x1 .f32) (xs0 : Vec F S2048x1 .f32) (xs1 : Vec F S2048x1 .f32) :
    sout0_B_0 c i a2 h2 a3 h3 a4 h4 a5 h5 a6 h6 a7 h7 hc0 hc1 x0 x1 xo3 xs0 xs1 = k0_pay1 (k0_pay9 x0 x1 xs1) xs0 := by
  unfold sout0_B_0
  rw [View.read_writes_eq_canon _ _ _ (scover0_B_0 c i a2 h2 a3 h3 a4 h4 a5 h5 a6 h6 a7 h7 hc0 hc1 x0 x1 xo3 xs0 xs1)]
  unfold kernelRun0_B
  dsimp only
  sl_unfold_words
  rw [View.canon_unit_zero hz2]
  simp only [View.readAt_eq_ld, h2.read_unread, h3.read_unread, h5.read_unread, h6.read_unread, h7.read_unread,
    View.ld_unit_zero (S := S1x2048x3) hz3, View.ld_unit_zero (S := S1x1024x3) hz3, View.ld_unit_zero (S := S2048x1) hz2,
    View.ld_unit_zero (S := S1x1x1) hz3]

/-- At a batch's second tile the tile's sum of column minima is added to the carried column sum. -/
theorem colSum_second (hc0 : ¬cond0_0 i) (hc1 : cond0_1 i) (x0 : Vec F S1x2048x3 .f32) (x1 : Vec F S1x1024x3 .f32)
    (xo3 : Vec F S1x1x1 .f32) (xs0 : Vec F S2048x1 .f32) (xs1 : Vec F S2048x1 .f32) :
    out0_B_3 c i a2 h2 a3 h3 a4 h4 a5 h5 a6 h6 a7 h7 hc0 hc1 x0 x1 xo3 xs0 xs1 = k0_pay2 (k0_pay8 x0 x1 xs1) xo3 := by
  unfold out0_B_3
  rw [View.read_writes_eq_canon _ _ _ (cover0_B_3 c i a2 h2 a3 h3 a4 h4 a5 h5 a6 h6 a7 h7 hc0 hc1 x0 x1 xo3 xs0 xs1)]
  unfold kernelRun0_B
  dsimp only
  sl_unfold_words
  rw [View.canon_unit_zero hz3]
  simp only [View.readAt_eq_ld, h2.read_unread, h3.read_unread, h5.read_unread, h6.read_unread, h7.read_unread,
    View.ld_unit_zero (S := S1x2048x3) hz3, View.ld_unit_zero (S := S1x1024x3) hz3, View.ld_unit_zero (S := S2048x1) hz2,
    View.ld_unit_zero (S := S1x1x1) hz3]

/-- At a batch's second (last) tile the row sum is the sum of the running row minimum just stored. -/
theorem rowSum_second (hc0 : ¬cond0_0 i) (hc1 : cond0_1 i) (x0 : Vec F S1x2048x3 .f32) (x1 : Vec F S1x1024x3 .f32)
    (xo3 : Vec F S1x1x1 .f32) (xs0 : Vec F S2048x1 .f32) (xs1 : Vec F S2048x1 .f32) :
    out0_B_2 c i a2 h2 a3 h3 a4 h4 a5 h5 a6 h6 a7 h7 hc0 hc1 x0 x1 xo3 xs0 xs1 = k0_pay3 (k0_pay1 (k0_pay9 x0 x1 xs1) xs0) := by
  unfold out0_B_2
  rw [View.read_writes_eq_canon _ _ _ (cover0_B_2 c i a2 h2 a3 h3 a4 h4 a5 h5 a6 h6 a7 h7 hc0 hc1 x0 x1 xo3 xs0 xs1)]
  unfold kernelRun0_B
  dsimp only
  sl_unfold_words
  rw [View.canon_unit_zero hz3, View.readCov_unit_zero (S := S2048x1) _ hz2]
  simp only [View.readAt_eq_ld, h2.read_unread, h3.read_unread, h5.read_unread, h6.read_unread, h7.read_unread,
    View.ld_unit_zero (S := S1x2048x3) hz3, View.ld_unit_zero (S := S1x1024x3) hz3, View.ld_unit_zero (S := S2048x1) hz2,
    View.ld_unit_zero (S := S1x1x1) hz3]

end Cert.KernelIdeal.Pieces

end
-- ==== Proof.LibColumn.lean ====
/- A per-row statistic laid out as a column and spread back over the row.

   A kernel that reduces each row of an [a, b] block to one number (a maximum, a sum) keeps the result as a
   vector of length a, re-lays it as an [a, 1] column and broadcasts the column over the b positions of each
   row.  Read at (p, c) the column and its broadcast are the statistic of row p. -/
import Idealize.ShloMosaic.Lib.Pipeline.Value
import Idealize.ShloMosaic.Lib.ValueIdx

namespace Cert.LibColumn

open Idealize.ShloMosaic Idealize.ShloMosaic.ValueIdx

variable {α : Type}

/-- A vector of length a re-laid as an [a, 1] column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An [a, 1] column broadcast to [a, b] reads, at (p, c), the column at row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Both steps at once: the statistic of row p, at every position of the row. -/
theorem broadcastTo_shapeCast_column_apply {a b : ℕ} (x : (⟨1, ![a]⟩ : Shape).Idx → α)
    (h1 : (⟨1, ![a]⟩ : Shape).ShapeCasts ⟨2, ![a, 1]⟩) (h2 : (⟨2, ![a, 1]⟩ : Shape).Broadcasts ⟨2, ![a, b]⟩) (p : Fin a) (c : Fin b) :
    broadcastTo ⟨2, ![a, b]⟩ (shapeCast ⟨2, ![a, 1]⟩ x h1) h2 (ix2 p c) = x (ix1 p) :=
  (broadcastTo_a1_ab_apply _ h2 p c).trans (shapeCast_a_a1_apply x h1 p 0)

end Cert.LibColumn
-- ==== Proof.LibMinOverAxis.lean ====
/-
  Minima along one axis, and a repeated column, read at an index.

  * A minimum taken along ONE axis of an array of extended reals is, at each index of the result, the minimum
    (started from the accumulator's or the initial value) over that axis's coordinates of the source, in any order:
    minimum is commutative and associative, so the set of source positions over a result index may be enumerated by
    the reduced coordinate.  Stated for a vector minimum-reduction at any shape, and for the host's reduction down the
    rows of an [m, n] matrix.
  * A column vector [a, 1] repeated along its unit axis to [a, b] reads, at (p, c), the column's entry p.
-/
import Idealize.ShloMosaic.PureOps.Ideal.Laws
import Idealize.ShloMosaic.Lib.ValueIdx
import Idealize.ShloMosaic.Lib.Pipeline.Value

noncomputable section

namespace Idealize.ShloMosaic.MinOverAxis

open Idealize.ShloMosaic Idealize.ShloMosaic.ValueIdx

variable {φ : FTy}

/-- A float minimum-reduction over one axis, read on the extended reals: the fold of `min` from the accumulator's
    value over that axis's coordinates. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- A minimum taken by the host down the rows of an [m, n] matrix, from an initial value, read at column t: the minimum
    over the m row coordinates. -/
theorem hostMin_rows_apply {mm nn : Nat} (x : FVec Ideal ⟨2, ![mm, nn]⟩ .f32) (init : FVec Ideal ⟨0, ![]⟩ .f32)
    (h' : (⟨2, ![mm, nn]⟩ : Shape).ReducesTo [0] (⟨1, ![nn]⟩ : Shape))
    (h : (⟨2, ![mm, nn]⟩ : Shape).Reduces [0] (⟨1, ![nn]⟩ : Shape)) (hu : 0 < (⟨0, ![]⟩ : Shape).numel) (t : Fin nn) :
    Host.reduce FloatOps.minimumf x init h' hu (ix1 t)
      = (Finset.univ : Finset (Fin mm)).fold min (init (Shape.Idx.first hu)) fun k => x (ix2 k t) := by
  rw [Host.reduce_eq_fold_single FloatOps.minimumf x _ h' h hu]
  have hf : (x ∘ h.lift (ix1 t)) = fun k : Fin mm => x (ix2 k t) :=
    funext fun k => congrArg x (funext fun c => Fin.ext (by fin_cases c <;> rfl))
  exact congrArg (fun f => Finset.fold min (init (Shape.Idx.first hu)) f (Finset.univ : Finset (Fin mm))) hf

/-- A column [a, 1] repeated to [a, b] reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.MinOverAxis

end
-- ==== Proof.Payloads.lean ====
/-
  The kernel body's arithmetic read entry by entry on the extended reals.  For one batch b and one tile of 1024 target
  points, with p the [2048, 3] block of predictions and t the [1024, 3] block of targets:
    row squares      xx n      = Σ_d p(n,d)²
    tile distances   P (n, k)  = (xx n + Σ_d t(k,d)²) + (((0 + p(n,0)·(t(k,0)·(-2))) + p(n,1)·(t(k,1)·(-2))) + p(n,2)·(t(k,2)·(-2)))
    row minimum      min over the tile's 1024 columns, from +inf;  column minimum: min over the 2048 rows, from +inf
    running row minimum, column sum and row sum as the body stores them.
-/
import proofs.«155968_j11656541241933_2_alg».proof.Proof.Gen.KernelIdeal.Skeleton
import proofs.«155968_j11656541241933_2_alg».proof.Proof.LibColumn
import proofs.«155968_j11656541241933_2_alg».proof.Proof.LibMinOverAxis
import proofs.«155968_j11656541241933_2_alg».proof.Proof.Words
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payloads

open Cert.KernelIdeal Cert.KernelIdeal.Gen
open Idealize.ShloMosaic Idealize.ShloMosaic.ValueIdx Cert.Words

/-- An [a, 1] column re-laid as a vector of length a reads, at i, the column at (i, 0). -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- The predictions block with its leading unit axis dropped. -/
theorem block_apply (x0 : Vec Ideal S1x2048x3 .f32) (n : Fin 2048) (d : Fin 3) :
    k0_pay4 (F := Ideal) x0 (ix2 n d) = x0 (ix3 (0 : Fin 1) n d) := by
  unfold k0_pay4
  exact shapeCast_1ab_ab_apply x0 _ n d

/-- A sum over the three coordinates of each row of an [A, 3] array. -/
theorem sum3_2048 (X : FVec Ideal S2048x3 .f32) (n : Fin 2048) :
    multiReduction .add [1] S2048 X 0x00000000#32 reduces_S2048x3_S2048 (.inl rfl) rfl (ix1 n) = ∑ d : Fin 3, X (ix2 n d) :=
  (Ideal.multiReduction_add_single X _ reduces_S2048x3_S2048 _ _ (ix1 n)).trans
    (Finset.sum_congr rfl fun d _ => congrArg X (funext fun q => Fin.ext (by fin_cases q <;> rfl)))

theorem sum3_1024 (X : FVec Ideal S1024x3 .f32) (k : Fin 1024) :
    multiReduction .add [1] S1024 X 0x00000000#32 reduces_S1024x3_S1024 (.inl rfl) rfl (ix1 k) = ∑ d : Fin 3, X (ix2 k d) :=
  (Ideal.multiReduction_add_single X _ reduces_S1024x3_S1024 _ _ (ix1 k)).trans
    (Finset.sum_congr rfl fun d _ => congrArg X (funext fun q => Fin.ext (by fin_cases q <;> rfl)))

/-- The row squares, kept as a column: entry (n, ·) is Σ_d p(n,d)². -/
theorem rowSquares_apply (x0 : Vec Ideal S1x2048x3 .f32) (n : Fin 2048) (u : Fin 1) :
    k0_pay7 (F := Ideal) x0 (ix2 n u) = ∑ d : Fin 3, x0 (ix3 (0 : Fin 1) n d) * x0 (ix3 (0 : Fin 1) n d) := by
  unfold k0_pay7
  (try dsimp only)
  rw [shapeCast_self]
  refine (Cert.LibColumn.shapeCast_a_a1_apply _ _ n u).trans ?_
  rw [sum3_2048]
  simp only [mulf_apply, block_apply]

/-- Column d of the predictions block, spread over the tile's 1024 columns. -/
theorem predColumn_apply (x0 : Vec Ideal S1x2048x3 .f32) (o : Nat) (h : S2048x3.Slices ![0, o] S2048x1)
    (n : Fin 2048) (k : Fin 1024) (d : Fin 3) (hd : d.val = o) :
    broadcastTo S2048x1024 (extractStridedSlice S2048x1 ![0, o] (k0_pay4 (F := Ideal) x0) h) broadcasts_S2048x1_S2048x1024 (ix2 n k)
      = x0 (ix3 (0 : Fin 1) n d) :=
  (Cert.LibColumn.broadcastTo_a1_ab_apply _ _ n k).trans
    ((slice2_axis1_apply o _ h n (0 : Fin 1) d hd).trans (block_apply x0 n d))

/-- Column d of the scaled targets block, laid as a row and spread over the 2048 rows. -/
theorem targRow_apply (v9 : FVec Ideal S1024x3 .f32) (o : Nat) (h : S1024x3.Slices ![0, o] S1024x1)
    (n : Fin 2048) (k : Fin 1024) (d : Fin 3) (hd : d.val = o) :
    broadcastTo S2048x1024 (shapeCast S1x1024 (shapeCast S1024 (extractStridedSlice S1024x1 ![0, o] v9 h)
        shapeCasts_S1024x1_S1024) shapeCasts_S1024_S1x1024) broadcasts_S1x1024_S2048x1024 (ix2 n k)
      = v9 (ix2 k d) :=
  (broadcastTo_1b_ab_apply _ _ n k).trans
    ((shapeCast_a_1a_apply _ _ (0 : Fin 1) k).trans
      ((shapeCast_a1_a_apply _ _ k).trans (slice2_axis1_apply o v9 h k (0 : Fin 1) d hd)))

/-- A vector of length 1024 laid as a row and spread over the 2048 rows. -/
theorem rowVector_apply (v : FVec Ideal S1024 .f32) (n : Fin 2048) (k : Fin 1024) :
    broadcastTo S2048x1024 (shapeCast S1x1024 v shapeCasts_S1024_S1x1024) broadcasts_S1x1024_S2048x1024 (ix2 n k) = v (ix1 k) :=
  (broadcastTo_1b_ab_apply _ _ n k).trans (shapeCast_a_1a_apply _ _ (0 : Fin 1) k)

/-- The tile of squared distances, entry (n, k), from the predictions block, the targets block and the carried row squares. -/
theorem tile_apply (x0 : Vec Ideal S1x2048x3 .f32) (x1 : Vec Ideal S1x1024x3 .f32) (v7 : Vec Ideal S2048x1 .f32)
    (n : Fin 2048) (k : Fin 1024) :
    k0_pay8 (F := Ideal) x0 x1 v7 (ix2 n k)
      = (v7 (ix2 n (0 : Fin 1)) + ∑ d : Fin 3, x1 (ix3 (0 : Fin 1) k d) * x1 (ix3 (0 : Fin 1) k d))
        + (((zeroW + x0 (ix3 (0 : Fin 1) n 0) * (x1 (ix3 (0 : Fin 1) k 0) * negTwoW))
            + x0 (ix3 (0 : Fin 1) n 1) * (x1 (ix3 (0 : Fin 1) k 1) * negTwoW))
            + x0 (ix3 (0 : Fin 1) n 2) * (x1 (ix3 (0 : Fin 1) k 2) * negTwoW)) := by
  unfold k0_pay8
  (try dsimp only)
  simp only [addf_apply, mulf_apply, broadcast_apply]
  rw [predColumn_apply x0 0 _ n k 0 rfl, predColumn_apply x0 1 _ n k 1 rfl, predColumn_apply x0 2 _ n k 2 rfl,
    targRow_apply _ 0 _ n k 0 rfl, targRow_apply _ 1 _ n k 1 rfl, targRow_apply _ 2 _ n k 2 rfl,
    rowVector_apply, sum3_1024, Cert.LibColumn.broadcastTo_a1_ab_apply]
  simp only [mulf_apply, broadcast_apply, shapeCast_1ab_ab_apply]
  rfl

/-- The tile's row minimum: entry n is the minimum over the tile's 1024 columns, from +inf. -/
theorem tileRowMin_apply (x0 : Vec Ideal S1x2048x3 .f32) (x1 : Vec Ideal S1x1024x3 .f32) (v7 : Vec Ideal S2048x1 .f32) (n : Fin 2048) :
    k0_pay9 (F := Ideal) x0 x1 v7 (ix1 n)
      = (Finset.univ : Finset (Fin 1024)).fold min posInf fun k => k0_pay8 (F := Ideal) x0 x1 v7 (ix2 n k) := by
  unfold k0_pay9
  refine (Idealize.ShloMosaic.MinOverAxis.multiReduction_minimumf_single _ _ reduces_S2048x1024_S2048 _ _ (ix1 n)).trans ?_
  exact congrArg (fun f => Finset.fold min posInf f (Finset.univ : Finset (Fin 1024)))
    (funext fun k => congrArg (k0_pay8 (F := Ideal) x0 x1 v7) (funext fun q => Fin.ext (by fin_cases q <;> rfl)))

/-- The running row minimum: the buffer's entry lowered by the tile's row minimum. -/
theorem runningMin_apply (v42 : FVec Ideal S2048 .f32) (v46 : Vec Ideal S2048x1 .f32) (n : Fin 2048) (u : Fin 1) :
    k0_pay1 (F := Ideal) v42 v46 (ix2 n u) = min (v46 (ix2 n u)) (v42 (ix1 n)) := by
  unfold k0_pay1
  (try dsimp only)
  rw [shapeCast_self, minimumf_apply, Cert.LibColumn.shapeCast_a_a1_apply]

/-- The column sum: the buffer's entry plus the sum over the tile's 1024 columns of the column minima (each over the 2048 rows, from +inf). -/
theorem colSum_apply (v41 : FVec Ideal S2048x1024 .f32) (v51 : Vec Ideal S1x1x1 .f32) (a b c : Fin 1) :
    k0_pay2 (F := Ideal) v41 v51 (ix3 a b c)
      = v51 (ix3 a b c) + ∑ k : Fin 1024, (Finset.univ : Finset (Fin 2048)).fold min posInf fun n => v41 (ix2 n k) := by
  unfold k0_pay2
  (try dsimp only)
  rw [addf_apply, shapeCast_self]
  refine congrArg (v51 (ix3 a b c) + ·) ?_
  refine (shapeCast_ab_1ab_apply _ _ a b c).trans ?_
  refine (shapeCast_a_1a_apply _ _ b c).trans ?_
  refine (Ideal.multiReduction_add_single _ _ reduces_S1x1024_S1 _ _ (ix1 c)).trans ?_
  refine Finset.sum_congr rfl fun k _ => ?_
  have e : reduces_S1x1024_S1.lift (ix1 c) k = ix2 c k := funext fun q => Fin.ext (by fin_cases q <;> rfl)
  rw [e]
  refine (shapeCast_a_1a_apply _ _ c k).trans ?_
  refine (Idealize.ShloMosaic.MinOverAxis.multiReduction_minimumf_single _ _ reduces_S2048x1024_S1024 _ _ (ix1 k)).trans ?_
  exact congrArg (fun f => Finset.fold min posInf f (Finset.univ : Finset (Fin 2048)))
    (funext fun n => congrArg v41 (funext fun q => Fin.ext (by fin_cases q <;> rfl)))

/-- The row sum: the sum over the 2048 rows of the running row minimum. -/
theorem rowSum_apply (v61 : Vec Ideal S2048x1 .f32) (a b c : Fin 1) :
    k0_pay3 (F := Ideal) v61 (ix3 a b c) = ∑ n : Fin 2048, v61 (ix2 n c) := by
  unfold k0_pay3
  refine (shapeCast_ab_1ab_apply _ _ a b c).trans ?_
  refine (shapeCast_a_1a_apply _ _ b c).trans ?_
  refine (Ideal.multiReduction_add_single _ _ reduces_S2048x1_S1 _ _ (ix1 c)).trans ?_
  exact Finset.sum_congr rfl fun n _ => congrArg v61 (funext fun q => Fin.ext (by fin_cases q <;> rfl))

/-- The two initial values a batch's first tile stores: +inf in every running row minimum, zero in the column sum. -/
theorem initMin_apply (j : S2048x1.Idx) : k0_pay5 (F := Ideal) j = posInf := by
  unfold k0_pay5
  (try dsimp only)
  rw [shapeCast_self]
  rfl

theorem initSum_apply (j : S1x1x1.Idx) : k0_pay6 (F := Ideal) j = zeroW := rfl

end Cert.KernelIdeal.Payloads

end
-- ==== Proof.Blocks.lean ====
/-
  The two input blocks at a grid point, read entry by entry off the argument arrays.  Point t of the 16 × 2 grid is
  batch t / 2 and tile t % 2: the predictions window holds batch t / 2 whole, the targets window holds rows
  (t % 2)·1024 … (t % 2)·1024 + 1023 of batch t / 2.
-/
import proofs.«155968_j11656541241933_2_alg».proof.Proof.Gen.KernelIdeal.Frame
import Idealize.ShloMosaic.Lib.Pipeline.Value
import Idealize.ShloMosaic.Lib.ValueIdx

noncomputable section

namespace Cert.KernelIdeal.Blocks

open Cert.KernelIdeal Cert.KernelIdeal.Gen
open Idealize.ShloMosaic Idealize.ShloMosaic.TcCoe Idealize.SL.Sem Idealize.ShloMosaic.ValueIdx

variable {F : FTy → Type} [FloatOps F]
variable (m : (ℓ : Loc nD τ sig) → Buf (Elt F) ℓ)

/-- Where the two input windows sit at each grid point. -/
theorem index_facts : ∀ t : Fin cfg0.N,
    (win0_0.index t 0 = t.val / 2 ∧ win0_0.index t 1 = 0 ∧ win0_0.index t 2 = 0)
    ∧ (win0_1.index t 0 = t.val / 2 ∧ win0_1.index t 1 = t.val % 2 ∧ win0_1.index t 2 = 0) :=
  (by decide +kernel : ∀ t : Fin grid0.N,
    (win0_0.index t 0 = t.val / 2 ∧ win0_0.index t 1 = 0 ∧ win0_0.index t 2 = 0)
    ∧ (win0_1.index t 0 = t.val / 2 ∧ win0_1.index t 1 = t.val % 2 ∧ win0_1.index t 2 = 0))

/-- The predictions block at point t is batch t / 2 of the predictions. -/
theorem predBlock_apply (c : Dev nD) (t : Fin cfg0.N) (b : Fin 16) (hb : b.val = t.val / 2) (n : Fin 2048) (d : Fin 3) :
    (iblk m c 0 t : Vec F S1x2048x3 .f32) (ix3 (0 : Fin 1) n d)
      = (V m c main_arg0 : S16x2048x3.Idx → Elt F .f32) (ix3 b n d) := by
  have hi := (index_facts t).1
  unfold iblk
  rw [View.read_apply]
  show V m c main_arg0 (((cfg0.win 0).blk t).view.emb (ix3 (0 : Fin 1) n d)) = V m c main_arg0 (ix3 b n d)
  refine congrArg (V m c main_arg0) (funext fun a => Fin.ext ?_)
  match a with
  | ⟨0, _⟩ => show win0_0.index t 0 * 1 + 1 * 0 = b.val; rw [hi.1, hb]; omega
  | ⟨1, _⟩ => show win0_0.index t 1 * 2048 + 1 * n.val = n.val; rw [hi.2.1]; omega
  | ⟨2, _⟩ => show win0_0.index t 2 * 3 + 1 * d.val = d.val; rw [hi.2.2]; omega

/-- The targets block at point t is tile t % 2 of batch t / 2 of the targets. -/
theorem targBlock_apply (c : Dev nD) (t : Fin cfg0.N) (b : Fin 16) (hb : b.val = t.val / 2) (r : Fin 2048) (k : Fin 1024)
    (hr : r.val = t.val % 2 * 1024 + k.val) (d : Fin 3) :
    (iblk m c 1 t : Vec F S1x1024x3 .f32) (ix3 (0 : Fin 1) k d)
      = (V m c main_arg1 : S16x2048x3.Idx → Elt F .f32) (ix3 b r d) := by
  have hi := (index_facts t).2
  unfold iblk
  rw [View.read_apply]
  show V m c main_arg1 (((cfg0.win 1).blk t).view.emb (ix3 (0 : Fin 1) k d)) = V m c main_arg1 (ix3 b r d)
  refine congrArg (V m c main_arg1) (funext fun a => Fin.ext ?_)
  match a with
  | ⟨0, _⟩ => show win0_1.index t 0 * 1 + 1 * 0 = b.val; rw [hi.1, hb]; omega
  | ⟨1, _⟩ => show win0_1.index t 1 * 1024 + 1 * k.val = r.val; rw [hi.2.1, hr]; omega
  | ⟨2, _⟩ => show win0_1.index t 2 * 3 + 1 * d.val = d.val; rw [hi.2.2]; omega

end Cert.KernelIdeal.Blocks

end
-- ==== Proof.Accum.lean ====
/-
  What the two outputs' staging buffers and the two carried scratch buffers hold after each grid point, first as the
  body's arithmetic over the input blocks (and, at a batch's second tile, over what its first tile left), then entry by
  entry: after a batch's first tile the row squares |p_n|², the running row minimum min(+inf, min over tile 0) and the
  column sum 0 + Σ over tile 0 of the column minima; after its second tile the batch's row sum and column sum as the
  Chamfer loss defines them.
-/
import proofs.«155968_j11656541241933_2_alg».proof.Proof.Pieces
import proofs.«155968_j11656541241933_2_alg».proof.Proof.Payloads
import proofs.«155968_j11656541241933_2_alg».proof.Proof.Blocks
import proofs.«155968_j11656541241933_2_alg».proof.Proof.Chamfer

noncomputable section

namespace Cert.KernelIdeal.Accum

open Cert.KernelIdeal Cert.KernelIdeal.Gen
open Idealize.ShloMosaic Idealize.ShloMosaic.TcCoe Idealize.SL.Sem Idealize.ShloMosaic.ValueIdx Cert.Words

variable (m : (ℓ : Loc nD τ sig) → Buf (Elt Ideal) ℓ) (c : Dev nD)

/-- The two argument arrays as the region finds them, as clouds of points. -/
abbrev preds : Cert.Chamfer.Cloud := V m c main_arg0
abbrev targs : Cert.Chamfer.Cloud := V m c main_arg1

/-- The input blocks at a point. -/
abbrev X0 (t : Fin cfg0.N) : Vec Ideal S1x2048x3 .f32 := iblk m c 0 t
abbrev X1 (t : Fin cfg0.N) : Vec Ideal S1x1024x3 .f32 := iblk m c 1 t

/-- What the point before left. -/
abbrev prev (t : Fin cfg0.N) := outsAt0 m c (t.val - 1) (Nat.lt_of_le_of_lt (Nat.sub_le _ _) t.isLt)

/-! ## After a batch's first tile -/

theorem rowSquares_even (t : Fin cfg0.N) (h0 : t.val % 2 = 0) (h1 : ¬t.val % 2 = 1) :
    (outsAt0 m c t.val t.isLt).2.2.2 = k0_pay7 (X0 m c t) := by
  rw [outsAt0_A m c t h0 h1]
  dsimp only
  exact Pieces.rowSquares_first c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t)

theorem rowMin_even (t : Fin cfg0.N) (h0 : t.val % 2 = 0) (h1 : ¬t.val % 2 = 1) :
    (outsAt0 m c t.val t.isLt).2.2.1 = k0_pay1 (k0_pay9 (X0 m c t) (X1 m c t) (k0_pay7 (X0 m c t))) (k0_pay5 (F := Ideal)) := by
  rw [outsAt0_A m c t h0 h1]
  dsimp only
  exact Pieces.rowMin_first c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t)

theorem colSum_even (t : Fin cfg0.N) (h0 : t.val % 2 = 0) (h1 : ¬t.val % 2 = 1) :
    (outsAt0 m c t.val t.isLt).2.1 = k0_pay2 (k0_pay8 (X0 m c t) (X1 m c t) (k0_pay7 (X0 m c t))) (k0_pay6 (F := Ideal)) := by
  rw [outsAt0_A m c t h0 h1]
  dsimp only
  exact Pieces.colSum_first c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t)

/-! ## After a batch's second tile -/

theorem rowSum_odd (t : Fin cfg0.N) (h0 : ¬t.val % 2 = 0) (h1 : t.val % 2 = 1) :
    (outsAt0 m c t.val t.isLt).1
      = k0_pay3 (k0_pay1 (k0_pay9 (X0 m c t) (X1 m c t) (prev m c t).2.2.2) (prev m c t).2.2.1) := by
  rw [outsAt0_B m c t h0 h1]
  dsimp only
  exact Pieces.rowSum_second c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (prev m c t).2.1 (prev m c t).2.2.1 (prev m c t).2.2.2

theorem colSum_odd (t : Fin cfg0.N) (h0 : ¬t.val % 2 = 0) (h1 : t.val % 2 = 1) :
    (outsAt0 m c t.val t.isLt).2.1 = k0_pay2 (k0_pay8 (X0 m c t) (X1 m c t) (prev m c t).2.2.2) (prev m c t).2.1 := by
  rw [outsAt0_B m c t h0 h1]
  dsimp only
  exact Pieces.colSum_second c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (prev m c t).2.1 (prev m c t).2.2.1 (prev m c t).2.2.2

/-! ## Entry by entry -/

/-- The tile of squared distances at a point of batch b, tile j, over row squares that are |p_n|²: the kernel's
    arrangement of the squared distance to the tile's columns. -/
theorem tile_eq (t : Fin cfg0.N) (b : Fin 16) (j : Fin 2) (hb : b.val = t.val / 2) (hj : j.val = t.val % 2)
    (v7 : Vec Ideal S2048x1 .f32) (hv7 : ∀ n : Fin 2048, v7 (ix2 n (0 : Fin 1)) = Cert.Chamfer.sq (preds m c) b n)
    (n : Fin 2048) (k : Fin 1024) :
    k0_pay8 (F := Ideal) (X0 m c t) (X1 m c t) v7 (ix2 n k)
      = Cert.Chamfer.distK (preds m c) (targs m c) b n (Cert.Chamfer.tileCol j k) := by
  have hr : (Cert.Chamfer.tileCol j k).val = t.val % 2 * 1024 + k.val := by
    show j.val * 1024 + k.val = _; rw [hj]
  rw [Payloads.tile_apply (X0 m c t) (X1 m c t) v7 n k, hv7]
  simp only [Blocks.predBlock_apply m c t b hb, Blocks.targBlock_apply m c t b hb (Cert.Chamfer.tileCol j k) k hr]
  rfl

/-- The row squares computed from the predictions block at a point of batch b are |p_n|². -/
theorem rowSquares_block (t : Fin cfg0.N) (b : Fin 16) (hb : b.val = t.val / 2) (n : Fin 2048) (u : Fin 1) :
    k0_pay7 (F := Ideal) (X0 m c t) (ix2 n u) = Cert.Chamfer.sq (preds m c) b n := by
  rw [Payloads.rowSquares_apply (X0 m c t) n u]
  simp only [Blocks.predBlock_apply m c t b hb]
  rfl

/-- After batch b's first tile the carried row squares are |p_n|². -/
theorem rowSquares_even_apply (t : Fin cfg0.N) (h0 : t.val % 2 = 0) (h1 : ¬t.val % 2 = 1) (b : Fin 16) (hb : b.val = t.val / 2)
    (n : Fin 2048) (u : Fin 1) :
    (outsAt0 m c t.val t.isLt).2.2.2 (ix2 n u) = Cert.Chamfer.sq (preds m c) b n := by
  rw [rowSquares_even m c t h0 h1]
  exact rowSquares_block m c t b hb n u

/-- After batch b's first tile the running row minimum is the minimum over tile 0, from +inf, taken against the stored +inf. -/
theorem rowMin_even_apply (t : Fin cfg0.N) (h0 : t.val % 2 = 0) (h1 : ¬t.val % 2 = 1) (b : Fin 16) (hb : b.val = t.val / 2)
    (n : Fin 2048) (u : Fin 1) :
    (outsAt0 m c t.val t.isLt).2.2.1 (ix2 n u)
      = min posInf ((Finset.univ : Finset (Fin 1024)).fold min posInf fun k =>
          Cert.Chamfer.distK (preds m c) (targs m c) b n (Cert.Chamfer.tileCol 0 k)) := by
  have hj : (0 : Fin 2).val = t.val % 2 := by show 0 = _; omega
  rw [rowMin_even m c t h0 h1, Payloads.runningMin_apply, Payloads.initMin_apply, Payloads.tileRowMin_apply]
  simp only [tile_eq m c t b 0 hb hj (k0_pay7 (X0 m c t)) (fun n' => rowSquares_block m c t b hb n' 0)]

/-- After batch b's first tile the column sum is the stored zero plus the sum over tile 0 of the column minima. -/
theorem colSum_even_apply (t : Fin cfg0.N) (h0 : t.val % 2 = 0) (h1 : ¬t.val % 2 = 1) (b : Fin 16) (hb : b.val = t.val / 2)
    (a0 a1 a2 : Fin 1) :
    (outsAt0 m c t.val t.isLt).2.1 (ix3 a0 a1 a2)
      = zeroW + ∑ k : Fin 1024, (Finset.univ : Finset (Fin 2048)).fold min posInf fun n =>
          Cert.Chamfer.distK (preds m c) (targs m c) b n (Cert.Chamfer.tileCol 0 k) := by
  have hj : (0 : Fin 2).val = t.val % 2 := by show 0 = _; omega
  rw [colSum_even m c t h0 h1, Payloads.colSum_apply, Payloads.initSum_apply]
  simp only [tile_eq m c t b 0 hb hj (k0_pay7 (X0 m c t)) (fun n' => rowSquares_block m c t b hb n' 0)]

/-- After batch b's second tile the row-sum output holds the batch's row sum. -/
theorem rowSum_odd_apply (t : Fin cfg0.N) (b : Fin 16) (hb : t.val = 2 * b.val + 1) (a0 a1 a2 : Fin 1) :
    (outsAt0 m c t.val t.isLt).1 (ix3 a0 a1 a2) = Cert.Chamfer.rowSumK (preds m c) (targs m c) b := by
  have h0 : ¬t.val % 2 = 0 := by omega
  have h1 : t.val % 2 = 1 := by omega
  have hlt : t.val - 1 < cfg0.N := Nat.lt_of_le_of_lt (Nat.sub_le _ _) t.isLt
  have h0' : (⟨t.val - 1, hlt⟩ : Fin cfg0.N).val % 2 = 0 := by show (t.val - 1) % 2 = 0; omega
  have h1' : ¬(⟨t.val - 1, hlt⟩ : Fin cfg0.N).val % 2 = 1 := by show ¬(t.val - 1) % 2 = 1; omega
  have hb' : b.val = (⟨t.val - 1, hlt⟩ : Fin cfg0.N).val / 2 := by show b.val = (t.val - 1) / 2; omega
  have hbt : b.val = t.val / 2 := by omega
  have hj : (1 : Fin 2).val = t.val % 2 := by show 1 = _; omega
  have hsq : ∀ n : Fin 2048, (prev m c t).2.2.2 (ix2 n (0 : Fin 1)) = Cert.Chamfer.sq (preds m c) b n :=
    fun n => rowSquares_even_apply m c ⟨t.val - 1, hlt⟩ h0' h1' b hb' n 0
  have hmin : ∀ (n : Fin 2048) (u : Fin 1), (prev m c t).2.2.1 (ix2 n u)
      = min posInf ((Finset.univ : Finset (Fin 1024)).fold min posInf fun k =>
          Cert.Chamfer.distK (preds m c) (targs m c) b n (Cert.Chamfer.tileCol 0 k)) :=
    fun n u => rowMin_even_apply m c ⟨t.val - 1, hlt⟩ h0' h1' b hb' n u
  rw [rowSum_odd m c t h0 h1, Payloads.rowSum_apply]
  simp only [Payloads.runningMin_apply, Payloads.tileRowMin_apply, hmin,
    tile_eq m c t b 1 hbt hj (prev m c t).2.2.2 hsq]
  rfl

/-- After batch b's second tile the column-sum output holds the batch's column sum. -/
theorem colSum_odd_apply (t : Fin cfg0.N) (b : Fin 16) (hb : t.val = 2 * b.val + 1) (a0 a1 a2 : Fin 1) :
    (outsAt0 m c t.val t.isLt).2.1 (ix3 a0 a1 a2) = Cert.Chamfer.colSumK (preds m c) (targs m c) b := by
  have h0 : ¬t.val % 2 = 0 := by omega
  have h1 : t.val % 2 = 1 := by omega
  have hlt : t.val - 1 < cfg0.N := Nat.lt_of_le_of_lt (Nat.sub_le _ _) t.isLt
  have h0' : (⟨t.val - 1, hlt⟩ : Fin cfg0.N).val % 2 = 0 := by show (t.val - 1) % 2 = 0; omega
  have h1' : ¬(⟨t.val - 1, hlt⟩ : Fin cfg0.N).val % 2 = 1 := by show ¬(t.val - 1) % 2 = 1; omega
  have hb' : b.val = (⟨t.val - 1, hlt⟩ : Fin cfg0.N).val / 2 := by show b.val = (t.val - 1) / 2; omega
  have hbt : b.val = t.val / 2 := by omega
  have hj : (1 : Fin 2).val = t.val % 2 := by show 1 = _; omega
  have hsq : ∀ n : Fin 2048, (prev m c t).2.2.2 (ix2 n (0 : Fin 1)) = Cert.Chamfer.sq (preds m c) b n :=
    fun n => rowSquares_even_apply m c ⟨t.val - 1, hlt⟩ h0' h1' b hb' n 0
  have hcol : ∀ a0 a1 a2 : Fin 1, (prev m c t).2.1 (ix3 a0 a1 a2)
      = zeroW + ∑ k : Fin 1024, (Finset.univ : Finset (Fin 2048)).fold min posInf fun n =>
          Cert.Chamfer.distK (preds m c) (targs m c) b n (Cert.Chamfer.tileCol 0 k) :=
    fun a0 a1 a2 => colSum_even_apply m c ⟨t.val - 1, hlt⟩ h0' h1' b hb' a0 a1 a2
  rw [colSum_odd m c t h0 h1, Payloads.colSum_apply, hcol]
  simp only [tile_eq m c t b 1 hbt hj (prev m c t).2.2.2 hsq]
  rfl

end Cert.KernelIdeal.Accum

end
-- ==== Proof.Arrays.lean ====
/-
  The two output arrays after the run.  Each output window's block index is the batch (it ignores the tile), so the
  pipeline writes a block back once per batch, after the batch's second tile; the sixteen [1, 1, 1] blocks are the
  sixteen entries of the [16, 1, 1] array.  Entry b of the first array is batch b's row sum Σ_n min_m d, entry b of the
  second its column sum Σ_m min_n d, in the kernel's arrangement.
-/
import proofs.«155968_j11656541241933_2_alg».proof.Proof.Accum

noncomputable section

namespace Cert.KernelIdeal.Arrays

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (c : Dev nD)

/-- Where the two output windows sit at each grid point. -/
theorem out_index_facts : ∀ t : Fin cfg0.N,
    (win0_2.index t 0 = t.val / 2 ∧ win0_2.index t 1 = 0 ∧ win0_2.index t 2 = 0)
    ∧ (win0_3.index t 0 = t.val / 2 ∧ win0_3.index t 1 = 0 ∧ win0_3.index t 2 = 0) :=
  (by decide +kernel : ∀ t : Fin grid0.N,
    (win0_2.index t 0 = t.val / 2 ∧ win0_2.index t 1 = 0 ∧ win0_2.index t 2 = 0)
    ∧ (win0_3.index t 0 = t.val / 2 ∧ win0_3.index t 1 = 0 ∧ win0_3.index t 2 = 0))

/-- The row sums, one per batch. -/
abbrev rowSums : S16x1x1.Idx → EReal := fun i =>
  Cert.Chamfer.rowSumK (Accum.preds m c) (Accum.targs m c) ⟨(i 0).val, (i 0).isLt⟩

/-- What a batch's second tile writes back through output window 2 is that batch's block of the array. -/
theorem rowSums_flushed (t : Fin cfg0.N) (hf : (cfg0.win 2).flush t = true) :
    (dats m 0 c).flushed 2 t = ((cfg0.win 2).blk t).view.read (Elt Ideal) (rowSums m c) := by
  have h1 : t.val % 2 = 1 := (flush0_2 t).mp hf
  have hN : cfg0.N = 32 := N_0
  have hlt := t.isLt
  have hi := (out_index_facts t).1
  obtain ⟨b, hb⟩ : ∃ b : Fin 16, t.val = 2 * b.val + 1 :=
    ⟨⟨t.val / 2, by omega⟩, by show t.val = 2 * (t.val / 2) + 1; omega⟩
  show (cfg0.win 2).cut (grid0.coords t) ((dats m 0 c).after 2 t) = _
  rw [after0_2]
  refine funext fun (j : S1x1x1.Idx) => ?_
  obtain ⟨a0, a1, a2, rfl⟩ : ∃ a0 a1 a2 : Fin 1, j = ix3 a0 a1 a2 := ⟨j 0, j 1, j 2, eq_ix3 j⟩
  rw [View.read_apply]
  show (outsAt0 m c t.val t.isLt).1 (ix3 a0 a1 a2) = rowSums m c (((cfg0.win 2).blk t).view.emb (ix3 a0 a1 a2))
  rw [Accum.rowSum_odd_apply m c t b hb a0 a1 a2]
  refine congrArg (Cert.Chamfer.rowSumK (Accum.preds m c) (Accum.targs m c)) (Fin.ext ?_)
  show b.val = win0_2.index t 0 * 1 + 1 * a0.val
  rw [hi.1]; have := a0.isLt; omega

/-- Every entry of the array is in the block some batch's second tile writes back. -/
theorem rowSums_cover (i : S16x1x1.Idx) :
    ∃ t : Fin cfg0.N, (cfg0.win 2).flush t = true ∧ i ∈ ((cfg0.win 2).blk t).view.set := by
  have hN : cfg0.N = 32 := N_0
  have hi0 : (i 0).val < 16 := (i 0).isLt
  have hi1 : (i 1).val < 1 := (i 1).isLt
  have hi2 : (i 2).val < 1 := (i 2).isLt
  obtain ⟨t, htv⟩ : ∃ t : Fin cfg0.N, t.val = 2 * (i 0).val + 1 := ⟨⟨2 * (i 0).val + 1, by omega⟩, rfl⟩
  have ht := (out_index_facts t).1
  refine ⟨t, (flush0_2 t).mpr (by omega), ?_⟩
  show i ∈ ((View.whole main_v0_0).slice (win0_2.rect t)).set
  rw [View.set_slice_whole, Rect.mem_set_unit]
  intro a
  match a with
  | ⟨0, _⟩ =>
    show win0_2.index t 0 * 1 ≤ (i 0).val ∧ (i 0).val < win0_2.index t 0 * 1 + 1
    rw [ht.1]; omega
  | ⟨1, _⟩ =>
    show win0_2.index t 1 * 1 ≤ (i 1).val ∧ (i 1).val < win0_2.index t 1 * 1 + 1
    rw [ht.2.1]; omega
  | ⟨2, _⟩ =>
    show win0_2.index t 2 * 1 ≤ (i 2).val ∧ (i 2).val < win0_2.index t 2 * 1 + 1
    rw [ht.2.2]; omega

/-- So the array ends holding it. -/
theorem rowSums_final : (dats m 0 c).arrAt 2 cfg0.N = rowSums m c :=
  (dats m 0 c).arrAt_eq_of_cover 2 (rowSums m c) (rowSums_flushed m c) (rowSums_cover)

/-- The column sums, one per batch. -/
abbrev colSums : S16x1x1.Idx → EReal := fun i =>
  Cert.Chamfer.colSumK (Accum.preds m c) (Accum.targs m c) ⟨(i 0).val, (i 0).isLt⟩

/-- What a batch's second tile writes back through output window 3 is that batch's block of the array. -/
theorem colSums_flushed (t : Fin cfg0.N) (hf : (cfg0.win 3).flush t = true) :
    (dats m 0 c).flushed 3 t = ((cfg0.win 3).blk t).view.read (Elt Ideal) (colSums m c) := by
  have h1 : t.val % 2 = 1 := (flush0_3 t).mp hf
  have hN : cfg0.N = 32 := N_0
  have hlt := t.isLt
  have hi := (out_index_facts t).2
  obtain ⟨b, hb⟩ : ∃ b : Fin 16, t.val = 2 * b.val + 1 :=
    ⟨⟨t.val / 2, by omega⟩, by show t.val = 2 * (t.val / 2) + 1; omega⟩
  show (cfg0.win 3).cut (grid0.coords t) ((dats m 0 c).after 3 t) = _
  rw [after0_3]
  refine funext fun (j : S1x1x1.Idx) => ?_
  obtain ⟨a0, a1, a2, rfl⟩ : ∃ a0 a1 a2 : Fin 1, j = ix3 a0 a1 a2 := ⟨j 0, j 1, j 2, eq_ix3 j⟩
  rw [View.read_apply]
  show (outsAt0 m c t.val t.isLt).2.1 (ix3 a0 a1 a2) = colSums m c (((cfg0.win 3).blk t).view.emb (ix3 a0 a1 a2))
  rw [Accum.colSum_odd_apply m c t b hb a0 a1 a2]
  refine congrArg (Cert.Chamfer.colSumK (Accum.preds m c) (Accum.targs m c)) (Fin.ext ?_)
  show b.val = win0_3.index t 0 * 1 + 1 * a0.val
  rw [hi.1]; have := a0.isLt; omega

/-- Every entry of the array is in the block some batch's second tile writes back. -/
theorem colSums_cover (i : S16x1x1.Idx) :
    ∃ t : Fin cfg0.N, (cfg0.win 3).flush t = true ∧ i ∈ ((cfg0.win 3).blk t).view.set := by
  have hN : cfg0.N = 32 := N_0
  have hi0 : (i 0).val < 16 := (i 0).isLt
  have hi1 : (i 1).val < 1 := (i 1).isLt
  have hi2 : (i 2).val < 1 := (i 2).isLt
  obtain ⟨t, htv⟩ : ∃ t : Fin cfg0.N, t.val = 2 * (i 0).val + 1 := ⟨⟨2 * (i 0).val + 1, by omega⟩, rfl⟩
  have ht := (out_index_facts t).2
  refine ⟨t, (flush0_3 t).mpr (by omega), ?_⟩
  show i ∈ ((View.whole main_v0_1).slice (win0_3.rect t)).set
  rw [View.set_slice_whole, Rect.mem_set_unit]
  intro a
  match a with
  | ⟨0, _⟩ =>
    show win0_3.index t 0 * 1 ≤ (i 0).val ∧ (i 0).val < win0_3.index t 0 * 1 + 1
    rw [ht.1]; omega
  | ⟨1, _⟩ =>
    show win0_3.index t 1 * 1 ≤ (i 1).val ∧ (i 1).val < win0_3.index t 1 * 1 + 1
    rw [ht.2.1]; omega
  | ⟨2, _⟩ =>
    show win0_3.index t 2 * 1 ≤ (i 2).val ∧ (i 2).val < win0_3.index t 2 * 1 + 1
    rw [ht.2.2]; omega

/-- So the array ends holding it. -/
theorem colSums_final : (dats m 0 c).arrAt 3 cfg0.N = colSums m c :=
  (dats m 0 c).arrAt_eq_of_cover 3 (colSums m c) (colSums_flushed m c) (colSums_cover)

end Cert.KernelIdeal.Arrays

end
-- ==== Proof.Result.lean ====
/-
  The kernel program's result: after the region the host adds up each of the two [16, 1, 1] arrays from zero and adds
  the two sums, which is the Chamfer loss in the kernel's arrangement.
-/
import proofs.«155968_j11656541241933_2_alg».proof.Proof.Arrays
import Idealize.ShloMosaic.Lib.StableHlo.Run
import Idealize.ShloMosaic.Lib.Pipeline.FrameSuffix

noncomputable section

namespace Cert.KernelIdeal.Result

open Cert.KernelIdeal Cert.KernelIdeal.Gen
open Idealize.ShloMosaic Idealize.ShloMosaic.TcCoe Idealize.SL.Sem Idealize.ShloMosaic.ValueIdx Cert.Words
open Idealize.ShloMosaic.Pipeline (Dat)

/-- The sixteen entries of a [16, 1, 1] array are its entries (b, 0, 0). -/
def batchEquiv : Fin 16 ≃ S16x1x1.Idx where
  toFun b := ix3 b (0 : Fin 1) (0 : Fin 1)
  invFun i := ⟨(i 0).val, (i 0).isLt⟩
  left_inv b := rfl
  right_inv i := by
    have h1 : (i 1).val < 1 := (i 1).isLt
    have h2 : (i 2).val < 1 := (i 2).isLt
    funext q
    refine Fin.ext ?_
    match q with
    | ⟨0, _⟩ => rfl
    | ⟨1, _⟩ => show 0 = (i 1).val; omega
    | ⟨2, _⟩ => show 0 = (i 2).val; omega

theorem sum_batches (f : S16x1x1.Idx → EReal) : ∑ i, f i = ∑ b : Fin 16, f (ix3 b (0 : Fin 1) (0 : Fin 1)) :=
  (Equiv.sum_comp batchEquiv f).symm

/-- The host's sum of a [16, 1, 1] array from zero is zero plus the sum over the batches. -/
theorem hostSum_apply (y : S16x1x1.Idx → EReal) (i : S_.Idx) :
    Host.reduceAdd (F := Ideal) (φ := .f32) y (constant (F := Ideal) S_ .f32 0x00000000#32) reducesTo_S16x1x1_S_d0_1_2 h_S_ i
      = zeroW + ∑ b : Fin 16, y (ix3 b (0 : Fin 1) (0 : Fin 1)) := by
  simp only [Host.reduceAdd, Ideal.hostReduceAdd_def]
  rw [Ideal.hostReduceAdd_total reducesTo_S16x1x1_S_d0_1_2 (fun b => b.elim0) y _ i, sum_batches]
  rfl

variable (m : (ℓ : Loc nD τ sig) → Buf (Elt Ideal) ℓ)

/-- What the lines after the region leave in the program's result. -/
theorem tail_eq (c : Dev nD) :
    Pipeline.afterTail₀ cfgs (dats m) 0 (V0 m) [hostOps1] c main_v3
      = fun _ => Cert.Chamfer.lossK (Accum.preds m c) (Accum.targs m c) := by
  have e2 : Pipeline.withArrays (cfgs 0).spec c (V0 m c) (fun w => (dats m 0 c).arrAt w (cfgs 0).N) (Proc.devRef .tc main_v0_0)
      = Arrays.rowSums m c :=
    (Pipeline.withArrays_arr spec0 launch0.win.arr_inj c _ _ 2).trans (Arrays.rowSums_final m c)
  have e3 : Pipeline.withArrays (cfgs 0).spec c (V0 m c) (fun w => (dats m 0 c).arrAt w (cfgs 0).N) (Proc.devRef .tc main_v0_1)
      = Arrays.colSums m c :=
    (Pipeline.withArrays_arr spec0 launch0.win.arr_inj c _ _ 3).trans (Arrays.colSums_final m c)
  unfold Pipeline.afterTail₀
  show StableHlo.after hostOps1 _ (Proc.devRef .tc main_v3) = _
  after_results
  rw [e2, e3]
  funext i
  show Host.reduceAdd (F := Ideal) (φ := .f32) (Arrays.rowSums m c) _ _ _ i + Host.reduceAdd (F := Ideal) (φ := .f32) (Arrays.colSums m c) _ _ _ i = _
  rw [hostSum_apply, hostSum_apply]
  rfl

/-- The run, read: the result at the loss in the kernel's arrangement, the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v3) = (fun _ => Cert.Chamfer.lossK (Accum.preds m c) (Accum.targs m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v3 (Pipeline.mem_restRefs_of main_v3 rfl (fun w => by fin_cases w <;> decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Result

end
-- ==== Proof.Finite.lean ====
/-
  What the precondition says: both inputs hold finite numbers.  The printed predicate is the conjunction of two
  reductions by "and" over every index of |x| < +inf; each conjunct gives the comparison at every index, and an
  extended real whose absolute value max(x, -x) is below +inf is a real number.
-/
import proofs.«155968_j11656541241933_2_alg».proof.Pre_finite_inputs
import proofs.«155968_j11656541241933_2_alg».proof.Proof.Words
import Idealize.ShloMosaic.Lib.ReduceAll
import Idealize.ShloMosaic.Lib.ValueIdx

noncomputable section

namespace Cert.Pre_finite_inputs.Decode

open Idealize.ShloMosaic Cert.Pre_finite_inputs Cert.Pre_finite_inputs.Facts

variable [Facts]

instance : Subsingleton S_.Idx := ⟨fun a b => funext fun d => d.elim0⟩

/-- An extended real with max(x, -x) < +inf is a real number. -/
theorem real_of_abs_lt_inf (x : EReal)
    (h : Ideal.cmp .olt (max x (-x)) (Ideal.ofBits .f32 0x7F800000#32) = 1#1) : ∃ r : ℝ, x = (r : EReal) := by
  have hinf : Ideal.ofBits .f32 0x7F800000#32 = ⊤ := Cert.Words.posInf_eq
  rw [hinf] at h
  induction x using EReal.rec with
  | bot => simp [Ideal.cmp] at h
  | top => simp [Ideal.cmp] at h
  | coe r => exact ⟨r, rfl⟩

/-- Under the precondition every entry of both inputs is a real number. -/
theorem real_of_pre (a0 a1 : FVec Ideal S16x2048x3 .f32) (h : fn (F := Ideal) a0 a1 = fun _ => 1#1) :
    (∀ i, ∃ r : ℝ, a0 i = (r : EReal)) ∧ (∀ i, ∃ r : ℝ, a1 i = (r : EReal)) := by
  have h0 := congrFun h ValueIdx.ix0
  unfold fn at h0
  obtain ⟨e0, e1⟩ := IntOp.andi_eq_one.1 h0
  exact ⟨fun i => real_of_abs_lt_inf (a0 i) (Host.reduce_andi_all _ _ _ _ _ e0 i),
    fun i => real_of_abs_lt_inf (a1 i) (Host.reduce_andi_all _ _ _ _ _ e1 i)⟩

end Cert.Pre_finite_inputs.Decode

end
-- ==== Proof.lean ====
/-
  Chamfer loss: the kernel program and its reference agree on the extended reals for finite inputs.

  For sixteen batches of 2048 predictions p and 2048 targets t in R³, with d(n, m) = |p_n|² + |t_m|² - 2 p_n·t_m,
  both programs return  Σ_b Σ_n min_m d  +  Σ_b Σ_m min_n d.

  The kernel walks each batch's targets in two tiles of 1024 columns.  At the first tile it stores +inf in a running
  row minimum, zero in the batch's column sum and the row squares |p_n|² in a second scratch; at either tile it forms
  the tile's distances as (|p_n|² + |t_m|²) + Σ_d p_nd·(t_md·(-2)), lowers the running row minimum by the tile's row
  minima and adds the tile's sum of column minima to the column sum; at the second tile it also sums the running row
  minimum.  The host then adds up the sixteen row sums and the sixteen column sums, each from zero, and adds the two.
  The reference forms d as (|p_n|² + |t_m|²) - 2·Σ_d p_nd·t_md over the whole [16, 2048, 2048] array, takes the two
  minimum-reductions from +inf and the two total sums from zero.

  The two arrangements of d agree on real numbers (distributivity, which is where finiteness is used); a minimum over
  2048 columns is the minimum of the two tiles' minima, and a sum over 2048 columns the sum of the two tiles' sums
  (commutativity and associativity of min and + on the extended reals: no finiteness needed).  The ideal pass rewrote
  nothing, so the idealization is the program's own text.
-/
import proofs.«155968_j11656541241933_2_alg».proof.Defs
import proofs.«155968_j11656541241933_2_alg».proof.Proof.Gen.Kernel
import proofs.«155968_j11656541241933_2_alg».proof.Proof.Gen.Kernel.Frame
import proofs.«155968_j11656541241933_2_alg».proof.Proof.Gen.KernelIdeal
import proofs.«155968_j11656541241933_2_alg».proof.Proof.Gen.KernelIdeal.Frame
import proofs.«155968_j11656541241933_2_alg».proof.Proof.Gen.ReferenceIdeal
import proofs.«155968_j11656541241933_2_alg».proof.Proof.Gen.Pre_finite_inputs
import proofs.«155968_j11656541241933_2_alg».proof.Proof.Reference
import proofs.«155968_j11656541241933_2_alg».proof.Proof.Result
import proofs.«155968_j11656541241933_2_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the Chamfer loss of the arguments: the kernel's program in the tiled arrangement, the
    reference in the whole-array one, equal for finite arguments. -/
theorem algebraic : Cert.algebraic_KernelIdeal_ReferenceIdeal := by
  intro m ρ m' ρ' hpre hagree
  refine ⟨fun c => fun _ => Cert.Chamfer.lossK (Cert.KernelIdeal.Accum.preds m c) (Cert.KernelIdeal.Accum.targs m c),
    Cert.KernelIdeal.Result.run m ρ, ?_⟩
  refine (θ_run Cert.ReferenceIdeal.defs _ _).mono (fun _ h c => ⟨?_, (h c).2⟩)
    (Cert.ReferenceIdeal.Value.run (F := Ideal) m' ρ')
  obtain ⟨hp, hq⟩ := Cert.Pre_finite_inputs.Decode.real_of_pre _ _ (hpre c)
  rw [(h c).1, Cert.ReferenceIdeal.Read.val_main_v17_eq, (hagree c).1, (hagree c).2]
  funext i
  rw [Cert.ReferenceIdeal.RefValue.result_apply]
  exact (Cert.Chamfer.lossK_eq_lossR _ _ hp hq).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
